-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x128 : Shape := ⟨2, ![1024, 128]⟩
abbrev S128x4096 : Shape := ⟨2, ![128, 4096]⟩
abbrev S4096x128 : Shape := ⟨2, ![4096, 128]⟩
abbrev S128x1000 : Shape := ⟨2, ![128, 1000]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x4096 : S_.BroadcastsInDim S128x4096 (![] : Fin 0 → Fin S128x4096.rank)
  reducesTo_S128x4096_S_d0_1 : S128x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128x1000 : S_.BroadcastsInDim S128x1000 (![] : Fin 0 → Fin S128x1000.rank)
  reducesTo_S128x1000_S_d0_1 : S128x1000.ReducesTo [0, 1] S_

variable [Facts]

def fn_part2 {F : FTy → Type} [FloatOps F] (main_arg7 : FVec F S4096x128 .f32) (main_arg8 : FVec F S128x1000 .f32) (main_v33 : IVec S_ 1) : IVec S_ 1 :=
  let main_v34 : FVec F S4096x128 .f32 := Host.absf main_arg7
  let main_cst_12 : FVec F S_ .f32 := constant S_ .f32 0x7F800000#32
  let main_v35 : FVec F S4096x128 .f32 := broadcastInDim S4096x128 ![] bcast_S_S4096x128 main_cst_12
  let main_v36 : IVec S4096x128 1 := cmpf .olt main_v34 main_v35
  let main_c_13 : IVec S_ 1 := constantI S_ 1 1#1
  let main_v37 : IVec S_ 1 := (fun x v => Host.reduce IntOp.andi x v reducesTo_S4096x128_S_d0_1 h_S_) main_v36 main_c_13
  let main_v38 : IVec S_ 1 := andi main_v33 main_v37
  let main_v39 : FVec F S128x1000 .f32 := Host.absf main_arg8
  let main_cst_14 : FVec F S_ .f32 := constant S_ .f32 0x7F800000#32
  let main_v40 : FVec F S128x1000 .f32 := broadcastInDim S128x1000 ![] bcast_S_S128x1000 main_cst_14
  let main_v41 : IVec S128x1000 1 := cmpf .olt main_v39 main_v40
  let main_c_15 : IVec S_ 1 := constantI S_ 1 1#1
  let main_v42 : IVec S_ 1 := (fun x v => Host.reduce IntOp.andi x v reducesTo_S128x1000_S_d0_1 h_S_) main_v41 main_c_15
  let main_v43 : IVec S_ 1 := andi main_v38 main_v42
  main_v43

def fn_part1 {F : FTy → Type} [FloatOps F] (main_arg4 : FVec F S128x4096 .f32) (main_arg5 : FVec F S4096x128 .f32) (main_arg6 : FVec F S128x4096 .f32) (main_arg7 : FVec F S4096x128 .f32) (main_arg8 : FVec F S128x1000 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S128x4096 .f32 := Host.absf main_arg4
  let main_cst_6 : FVec F S_ .f32 := constant S_ .f32 0x7F800000#32
  let main_v20 : FVec F S128x4096 .f32 := broadcastInDim S128x4096 ![] bcast_S_S128x4096 main_cst_6
  let main_v21 : IVec S128x4096 1 := cmpf .olt main_v19 main_v20
  let main_c_7 : IVec S_ 1 := constantI S_ 1 1#1
  let main_v22 : IVec S_ 1 := (fun x v => Host.reduce IntOp.andi x v reducesTo_S128x4096_S_d0_1 h_S_) main_v21 main_c_7
  let main_v23 : IVec S_ 1 := andi main_v18 main_v22
  let main_v24 : FVec F S4096x128 .f32 := Host.absf main_arg5
  let main_cst_8 : FVec F S_ .f32 := constant S_ .f32 0x7F800000#32
  let main_v25 : FVec F S4096x128 .f32 := broadcastInDim S4096x128 ![] bcast_S_S4096x128 main_cst_8
  let main_v26 : IVec S4096x128 1 := cmpf .olt main_v24 main_v25
  let main_c_9 : IVec S_ 1 := constantI S_ 1 1#1
  let main_v27 : IVec S_ 1 := (fun x v => Host.reduce IntOp.andi x v reducesTo_S4096x128_S_d0_1 h_S_) main_v26 main_c_9
  let main_v28 : IVec S_ 1 := andi main_v23 main_v27
  let main_v29 : FVec F S128x4096 .f32 := Host.absf main_arg6
  let main_cst_10 : FVec F S_ .f32 := constant S_ .f32 0x7F800000#32
  let main_v30 : FVec F S128x4096 .f32 := broadcastInDim S128x4096 ![] bcast_S_S128x4096 main_cst_10
  let main_v31 : IVec S128x4096 1 := cmpf .olt main_v29 main_v30
  let main_c_11 : IVec S_ 1 := constantI S_ 1 1#1
  let main_v32 : IVec S_ 1 := (fun x v => Host.reduce IntOp.andi x v reducesTo_S128x4096_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S1024x128 .f32) (main_arg2 : FVec F S128x4096 .f32) (main_arg3 : FVec F S4096x128 .f32) (main_arg4 : FVec F S128x4096 .f32) (main_arg5 : FVec F S4096x128 .f32) (main_arg6 : FVec F S128x4096 .f32) (main_arg7 : FVec F S4096x128 .f32) (main_arg8 : FVec F S128x1000 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S1024x128 : Shape := ⟨2, ![1024, 128]⟩
abbrev S128x4096 : Shape := ⟨2, ![128, 4096]⟩
abbrev S4096x128 : Shape := ⟨2, ![4096, 128]⟩
abbrev S128x1000 : Shape := ⟨2, ![128, 1000]⟩
abbrev S8192x1000 : Shape := ⟨2, ![8192, 1000]⟩
abbrev S512x1024 : Shape := ⟨2, ![512, 1024]⟩
abbrev S512x1000 : Shape := ⟨2, ![512, 1000]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S128x4096, .f32⟩
  | .hbm, ⟨3, _⟩ => ⟨S4096x128, .f32⟩
  | .hbm, ⟨4, _⟩ => ⟨S128x4096, .f32⟩
  | .hbm, ⟨5, _⟩ => ⟨S4096x128, .f32⟩
  | .hbm, ⟨6, _⟩ => ⟨S128x4096, .f32⟩
  | .hbm, ⟨7, _⟩ => ⟨S4096x128, .f32⟩
  | .hbm, ⟨8, _⟩ => ⟨S128x1000, .f32⟩
  | .hbm, ⟨9, _⟩ => ⟨S8192x1000, .f32⟩
  | .local _ .vmem, ⟨0, _⟩ => ⟨S512x1024, .f32⟩
  | .local _ .vmem, ⟨1, _⟩ => ⟨S512x1024, .f32⟩
  | .local _ .vmem, ⟨2, _⟩ => ⟨S1024x128, .f32⟩
  | .local _ .vmem, ⟨3, _⟩ => ⟨S128x4096, .f32⟩
  | .local _ .vmem, ⟨4, _⟩ => ⟨S4096x128, .f32⟩
  | .local _ .vmem, ⟨5, _⟩ => ⟨S128x4096, .f32⟩
  | .local _ .vmem, ⟨6, _⟩ => ⟨S4096x128, .f32⟩
  | .local _ .vmem, ⟨7, _⟩ => ⟨S128x4096, .f32⟩
  | .local _ .vmem, ⟨8, _⟩ => ⟨S4096x128, .f32⟩
  | .local _ .vmem, ⟨9, _⟩ => ⟨S128x1000, .f32⟩
  | .local _ .vmem, ⟨10, _⟩ => ⟨S512x1000, .f32⟩
  | .local _ .vmem, ⟨11, _⟩ => ⟨S512x1000, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  inb_S1024x128_S1024x128_0_0 : ∀ a, (![0, 0] : Fin 2 → Nat) a + S1024x128.size a ≤ S1024x128.size a
  h_S1024x128 : 0 < S1024x128.numel
  inb_S128x4096_S128x4096_0_0 : ∀ a, (![0, 0] : Fin 2 → Nat) a + S128x4096.size a ≤ S128x4096.size a
  h_S128x4096 : 0 < S128x4096.numel
  inb_S4096x128_S4096x128_0_0 : ∀ a, (![0, 0] : Fin 2 → Nat) a + S4096x128.size a ≤ S4096x128.size a
  h_S4096x128 : 0 < S4096x128.numel
  inb_S128x1000_S128x1000_0_0 : ∀ a, (![0, 0] : Fin 2 → Nat) a + S128x1000.size a ≤ S128x1000.size a
  h_S128x1000 : 0 < S128x1000.numel
  reduces_S512x1000_S512 : S512x1000.Reduces [1] S512
  shapeCasts_S512_S512x1 : S512.ShapeCasts S512x1
  broadcasts_S512x1_S512x1000 : S512x1.Broadcasts S512x1000
  inb_S512x1000_S512x1000_0_0 : ∀ a, (![0, 0] : Fin 2 → Nat) a + S512x1000.size a ≤ S512x1000.size a
  h_S512x1000 : 0 < S512x1000.numel
  dot_S512x1024_S1024x128_S512x128_1_0_0_1_n_n_wf : DotDims.WF S512x1024 S1024x128 S512x128 [1] [0] [0] [1] [] []
  dot_S512x128_S128x4096_S512x4096_1_0_0_1_n_n_wf : DotDims.WF S512x128 S128x4096 S512x4096 [1] [0] [0] [1] [] []
  dot_S512x4096_S4096x128_S512x128_1_0_0_1_n_n_wf : DotDims.WF S512x4096 S4096x128 S512x128 [1] [0] [0] [1] [] []
  dot_S512x128_S128x1000_S512x1000_1_0_0_1_n_n_wf : DotDims.WF S512x128 S128x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x4096.size a
  hwx0_2 : ∀ i : grid0.Coords, EltTy.bits .f32 = 32 ∨ (Rect.block (s := S128x4096) S128x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .f32 = 32 ∨ (Rect.block (s := S4096x128) S4096x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S128x4096.size a
  hwx0_4 : ∀ i : grid0.Coords, EltTy.bits .f32 = 32 ∨ (Rect.block (s := S128x4096) S128x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .f32 = 32 ∨ (Rect.block (s := S4096x128) S4096x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S128x4096.size a
  hwx0_6 : ∀ i : grid0.Coords, EltTy.bits .f32 = 32 ∨ (Rect.block (s := S128x4096) S128x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S4096x128.size a
  hwx0_7 : ∀ i : grid0.Coords, EltTy.bits .f32 = 32 ∨ (Rect.block (s := S4096x128) S4096x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1000.size a ≤ S128x1000.size a
  hwx0_8 : ∀ i : grid0.Coords, EltTy.bits .f32 = 32 ∨ (Rect.block (s := S128x1000) S128x1000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1000.size a ≤ S8192x1000.size a
  hwx0_9 : ∀ i : grid0.Coords, EltTy.bits .f32 = 32 ∨ (Rect.block (s := S8192x1000) S512x1000.size (cc0_transform_9 i) (hinb0_9 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x1000_S512x1000_1_0_0_1_n_n : DotDims S512x128 S128x1000 S512x1000 where
  lhsContracting := [1]
  rhsContracting := [0]
  lhsNonContracting := [0]
  rhsNonContracting := [1]
  lhsBatch := []
  rhsBatch := []
  wf := dot_S512x128_S128x1000_S512x1000_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4096x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x1000.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S512x1000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x128 : Shape := ⟨2, ![1024, 128]⟩
abbrev S128x4096 : Shape := ⟨2, ![128, 4096]⟩
abbrev S4096x128 : Shape := ⟨2, ![4096, 128]⟩
abbrev S128x1000 : Shape := ⟨2, ![128, 1000]⟩
abbrev S1024x4096 : Shape := ⟨2, ![1024, 4096]⟩
abbrev S8192x4096 : Shape := ⟨2, ![8192, 4096]⟩
abbrev S_ : Shape := ⟨0, ![]⟩
abbrev S4096x4096 : Shape := ⟨2, ![4096, 4096]⟩
abbrev S4096x1000 : Shape := ⟨2, ![4096, 1000]⟩
abbrev S8192x1000 : Shape := ⟨2, ![8192, 1000]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S128x4096, .f32⟩
  | .hbm, ⟨3, _⟩ => ⟨S4096x128, .f32⟩
  | .hbm, ⟨4, _⟩ => ⟨S128x4096, .f32⟩
  | .hbm, ⟨5, _⟩ => ⟨S4096x128, .f32⟩
  | .hbm, ⟨6, _⟩ => ⟨S128x4096, .f32⟩
  | .hbm, ⟨7, _⟩ => ⟨S4096x128, .f32⟩
  | .hbm, ⟨8, _⟩ => ⟨S128x1000, .f32⟩
  | .hbm, ⟨9, _⟩ => ⟨S1024x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S4096x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S4096x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S4096x1000, .f32⟩
  | .hbm, ⟨25, _⟩ => ⟨S8192x1000, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x1000, .f32⟩
  | .hbm, ⟨33, _⟩ => ⟨S8192x1000, .f32⟩
  | .hbm, ⟨34, _⟩ => ⟨S8192x1000, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1, .f32⟩
  | .hbm, ⟨39, _⟩ => ⟨S8192x1000, .f32⟩
  | .hbm, ⟨40, _⟩ => ⟨S8192x1000, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_cst : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call2_cst : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call3_cst : Ref sig .tc := ⟨.hbm, 26, rfl⟩
abbrev main_call3_v0 : Ref sig .tc := ⟨.hbm, 27, rfl⟩
abbrev main_call3_cst_0 : Ref sig .tc := ⟨.hbm, 28, rfl⟩
abbrev main_call3_v1 : Ref sig .tc := ⟨.hbm, 29, rfl⟩
abbrev main_call3_v2 : Ref sig .tc := ⟨.hbm, 30, rfl⟩
abbrev main_call3_v3 : Ref sig .tc := ⟨.hbm, 31, rfl⟩
abbrev main_call3_v4 : Ref sig .tc := ⟨.hbm, 32, rfl⟩
abbrev main_call3_v5 : Ref sig .tc := ⟨.hbm, 33, rfl⟩
abbrev main_call3_v6 : Ref sig .tc := ⟨.hbm, 34, rfl⟩
abbrev main_call3_cst_1 : Ref sig .tc := ⟨.hbm, 35, rfl⟩
abbrev main_call3_v7 : Ref sig .tc := ⟨.hbm, 36, rfl⟩
abbrev main_call3_v8 : Ref sig .tc := ⟨.hbm, 37, rfl⟩
abbrev main_call3_v9 : Ref sig .tc := ⟨.hbm, 38, rfl⟩
abbrev main_call3_v10 : Ref sig .tc := ⟨.hbm, 39, rfl⟩
abbrev main_v11 : Ref sig .tc := ⟨.hbm, 40, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  reducesTo_S8192x1000_S8192_d1 : S8192x1000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1000_0_1 : S8192x1.BroadcastsInDim S8192x1000 (![0, 1] : Fin 2 → Fin S8192x1000.rank)
  dot_S1024x128_S128x4096_S1024x4096_1_0_0_1_n_n_wf : DotDims.WF S1024x128 S128x4096 S1024x4096 [1] [0] [0] [1] [] []
  dot_S8192x1024_S1024x4096_S8192x4096_1_0_0_1_n_n_wf : DotDims.WF S8192x1024 S1024x4096 S8192x4096 [1] [0] [0] [1] [] []
  dot_S4096x128_S128x4096_S4096x4096_1_0_0_1_n_n_wf : DotDims.WF S4096x128 S128x4096 S4096x4096 [1] [0] [0] [1] [] []
  dot_S8192x4096_S4096x4096_S8192x4096_1_0_0_1_n_n_wf : DotDims.WF S8192x4096 S4096x4096 S8192x4096 [1] [0] [0] [1] [] []
  dot_S4096x128_S128x1000_S4096x1000_1_0_0_1_n_n_wf : DotDims.WF S4096x128 S128x1000 S4096x1000 [1] [0] [0] [1] [] []
  dot_S8192x4096_S4096x1000_S8192x1000_1_0_0_1_n_n_wf : DotDims.WF S8192x4096 S4096x1000 S8192x1000 [1] [0] [0] [1] [] []

variable [Facts₀]

def dot_S1024x128_S128x4096_S1024x4096_1_0_0_1_n_n : DotDims S1024x128 S128x4096 S1024x4096 where
  lhsContracting := [1]
  rhsContracting := [0]
  lhsNonContracting := [0]
  rhsNonContracting := [1]
  lhsBatch := []
  rhsBatch := []
  wf := dot_S1024x128_S128x4096_S1024x4096_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S4096x128_S128x1000_S4096x1000_1_0_0_1_n_n : DotDims S4096x128 S128x1000 S4096x1000 where
  lhsContracting := [1]
  rhsContracting := [0]
  lhsNonContracting := [0]
  rhsNonContracting := [1]
  lhsBatch := []
  rhsBatch := []
  wf := dot_S4096x128_S128x1000_S4096x1000_1_0_0_1_n_n_wf
def dot_S8192x4096_S4096x1000_S8192x1000_1_0_0_1_n_n : DotDims S8192x4096 S4096x1000 S8192x1000 where
  lhsContracting := [1]
  rhsContracting := [0]
  lhsNonContracting := [0]
  rhsNonContracting := [1]
  lhsBatch := []
  rhsBatch := []
  wf := dot_S8192x4096_S4096x1000_S8192x1000_1_0_0_1_n_n_wf

class Facts : Prop extends Facts₀ where

variable [Facts]
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibLogSoftmaxRow.lean ====
/-
  A row-wise log-softmax read at an entry, on the extended reals.

  For an `[a, b]` array `z` the computation "subtract the row's largest entry, exponentiate, sum the row, take the
  logarithm, subtract" — the two row reductions kept as `[a, 1]` columns and broadcast back over the lanes — is, at
  entry `(p, c)`, `(z (p, c) − m) − log (Σ_k exp (z (p, k) − m))` with `m` the fold of `max` from `−∞` over row `p`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LogSoftmaxRow

open Idealize.ShloMosaic Idealize.ShloMosaic.ValueIdx

variable {a b : ℕ}

/-- The largest entry of row `p`: the fold of `max` from `−∞`. -/
def rowTop (z : FVec Ideal ⟨2, ![a, b]⟩ .f32) (p : Fin a) : EReal :=
  (Finset.univ : Finset (Fin b)).fold max ⊥ (fun k => z (ix2 p k))

/-- The binary32 word of `−∞` denotes `⊥`. -/
theorem ofBits_neg_inf : Ideal.ofBits .f32 0xFF800000#32 = (⊥ : EReal) := by
  simp [Ideal.ofBits, Ideal.ieee]

/-- The lane maximum from `−∞`, kept as a column and broadcast back, reads at `(p, c)` the row's largest entry. -/
theorem top_apply (z : FVec Ideal ⟨2, ![a, b]⟩ .f32) (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc : (0xFF800000#32 : BitVec 32) = FKind.maximumf.neutral .f32 (.inl rfl)) (p : Fin a) (c : Fin b) :
    broadcastTo ⟨2, ![a, b]⟩ (shapeCast ⟨2, ![a, 1]⟩ (multiReduction .maximumf [1] ⟨1, ![a]⟩ z 0xFF800000#32 hred (.inl rfl) hacc) hc) hb (ix2 p c)
      = rowTop z p := by
  have e1 : broadcastTo ⟨2, ![a, b]⟩ (shapeCast ⟨2, ![a, 1]⟩ (multiReduction .maximumf [1] ⟨1, ![a]⟩ z 0xFF800000#32 hred (.inl rfl) hacc) hc) hb (ix2 p c)
      = shapeCast ⟨2, ![a, 1]⟩ (multiReduction .maximumf [1] ⟨1, ![a]⟩ z 0xFF800000#32 hred (.inl rfl) hacc) hc (ix2 p (0 : Fin 1)) := by
    refine broadcastTo_apply _ hb (ix2 p c) (ix2 p (0 : Fin 1)) fun ax => ?_
    match ax with
    | ⟨0, _⟩ =>
      show p.val = if a = 1 then 0 else p.val
      split
      · have := p.isLt; omega
      · rfl
    | ⟨1, _⟩ => rfl
  have e2 : shapeCast ⟨2, ![a, 1]⟩ (multiReduction .maximumf [1] ⟨1, ![a]⟩ z 0xFF800000#32 hred (.inl rfl) hacc) hc (ix2 p (0 : Fin 1))
      = multiReduction .maximumf [1] ⟨1, ![a]⟩ z 0xFF800000#32 hred (.inl rfl) hacc (ix1 p) :=
    shapeCast_apply _ hc _ _ (by
      rw [Shape.rowMajor_val_two, Shape.rowMajor_val_one]
      show p.val = p.val * 1 + 0
      omega)
  rw [e1, e2]
  refine (Ideal.multiReduction_maximumf_single z 0xFF800000#32 hred (.inl rfl) hacc (ix1 p)).trans ?_
  rw [show (FloatOps.ofBits (F := Ideal) .f32 0xFF800000#32 : EReal) = ⊥ from ofBits_neg_inf]
  unfold rowTop
  refine congrArg (fun f => (Finset.univ : Finset (Fin b)).fold max ⊥ f) (funext fun k => ?_)
  exact congrArg z (funext fun ax => Fin.ext (by
    match ax with
    | ⟨0, _⟩ => rfl
    | ⟨1, _⟩ => rfl))

/-- The lane sum into zero of an array `w`, kept as a column, its logarithm broadcast back, reads at `(p, c)` the
    logarithm of row `p`'s sum. -/
theorem logSum_apply (w : FVec Ideal ⟨2, ![a, b]⟩ .f32) (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc : (0x00000000#32 : BitVec 32) = 0x00000000#32) (p : Fin a) (c : Fin b) :
    broadcastTo ⟨2, ![a, b]⟩ (log (shapeCast ⟨2, ![a, 1]⟩ (multiReduction .add [1] ⟨1, ![a]⟩ w 0x00000000#32 hred (.inl rfl) hacc) hc)) hb (ix2 p c)
      = Ideal.log (∑ k : Fin b, w (ix2 p k)) := by
  have e1 : broadcastTo ⟨2, ![a, b]⟩ (log (shapeCast ⟨2, ![a, 1]⟩ (multiReduction .add [1] ⟨1, ![a]⟩ w 0x00000000#32 hred (.inl rfl) hacc) hc)) hb (ix2 p c)
      = log (shapeCast ⟨2, ![a, 1]⟩ (multiReduction .add [1] ⟨1, ![a]⟩ w 0x00000000#32 hred (.inl rfl) hacc) hc) (ix2 p (0 : Fin 1)) := by
    refine broadcastTo_apply _ hb (ix2 p c) (ix2 p (0 : Fin 1)) fun ax => ?_
    match ax with
    | ⟨0, _⟩ =>
      show p.val = if a = 1 then 0 else p.val
      split
      · have := p.isLt; omega
      · rfl
    | ⟨1, _⟩ => rfl
  have e2 : shapeCast ⟨2, ![a, 1]⟩ (multiReduction .add [1] ⟨1, ![a]⟩ w 0x00000000#32 hred (.inl rfl) hacc) hc (ix2 p (0 : Fin 1))
      = multiReduction .add [1] ⟨1, ![a]⟩ w 0x00000000#32 hred (.inl rfl) hacc (ix1 p) :=
    shapeCast_apply _ hc _ _ (by
      rw [Shape.rowMajor_val_two, Shape.rowMajor_val_one]
      show p.val = p.val * 1 + 0
      omega)
  rw [e1]
  show Ideal.log (shapeCast ⟨2, ![a, 1]⟩ (multiReduction .add [1] ⟨1, ![a]⟩ w 0x00000000#32 hred (.inl rfl) hacc) hc (ix2 p (0 : Fin 1))) = _
  rw [e2]
  refine congrArg Ideal.log ?_
  refine (Ideal.multiReduction_add_single w 0x00000000#32 hred (.inl rfl) hacc (ix1 p)).trans ?_
  exact Finset.sum_congr rfl fun k _ => congrArg w (funext fun ax => Fin.ext (by
    match ax with
    | ⟨0, _⟩ => rfl
    | ⟨1, _⟩ => rfl))

/-- The whole row-wise log-softmax at entry `(p, c)`. -/
theorem logSoftmax_apply (z : FVec Ideal ⟨2, ![a, b]⟩ .f32) (hred : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hacc1 : (0xFF800000#32 : BitVec 32) = FKind.maximumf.neutral .f32 (.inl rfl))
    (hacc2 : (0x00000000#32 : BitVec 32) = 0x00000000#32) (p : Fin a) (c : Fin b) :
    subf (subf z (broadcastTo ⟨2, ![a, b]⟩ (shapeCast ⟨2, ![a, 1]⟩ (multiReduction .maximumf [1] ⟨1, ![a]⟩ z 0xFF800000#32 hred (.inl rfl) hacc1) hc) hb))
        (broadcastTo ⟨2, ![a, b]⟩ (log (shapeCast ⟨2, ![a, 1]⟩ (multiReduction .add [1] ⟨1, ![a]⟩
          (exp (subf z (broadcastTo ⟨2, ![a, b]⟩ (shapeCast ⟨2, ![a, 1]⟩ (multiReduction .maximumf [1] ⟨1, ![a]⟩ z 0xFF800000#32 hred (.inl rfl) hacc1) hc) hb)))
          0x00000000#32 hred (.inl rfl) hacc2) hc)) hb) (ix2 p c)
      = (z (ix2 p c) - rowTop z p) - Ideal.log (∑ k : Fin b, Ideal.exp (z (ix2 p k) - rowTop z p)) := by
  rw [subf_apply, subf_apply, top_apply z hred hc hb hacc1 p c, logSum_apply _ hred hc hb hacc2 p c]
  refine congrArg (fun s => (z (ix2 p c) - rowTop z p) - Ideal.log s) (Finset.sum_congr rfl fun k _ => ?_)
  show Ideal.exp (subf z _ (ix2 p k)) = _
  rw [subf_apply, top_apply z hred hc hb hacc1 p k]

end Idealize.ShloMosaic.LogSoftmaxRow

end
-- ==== Proof.LibRealMatmul.lean ====
/-
  Matrix products of real matrices, on the extended reals.

  A product `Σ j, l p j · w j c` of extended reals is bilinear and associative only away from the infinities.  When every
  entry is a real number the sums are real sums: a product of real matrices is real, a real matrix clamped below at
  `0` is real, and `(z · K) · V = z · (K · V)` — both sides are the double sum `Σ i, Σ j, z p i · K i j · V j c`.

  Also here: an `[a, b]` array read as a function of its two coordinates, and, for a dimension record of a plain
  `[a, k] × [k, b]` product, the two index facts that its non-contracted axes give (each by evaluating the record's lists).
-/
import Idealize.ShloMosaic.Lib.ValueIdx
import Idealize.ShloMosaic.PureOps.Ideal.Laws

noncomputable section

namespace Idealize.ShloMosaic.RealMatmul

open Idealize.ShloMosaic Idealize.ShloMosaic.ValueIdx

/-- For a dimension record `D` whose left operand's axis 0 is its one non-contracting axis: the left operand's index
    at `(i, q)` has first coordinate `i 0`.  Read off the record's lists. -/
macro "left_row_of% " D:term : term => `(fun i q => by
  unfold DotDims.lhsIdx
  rw [dif_neg (show ¬(0 : Fin _) ∈ ($D).lhsBatch by decide), dif_pos (show (0 : Fin _) ∈ ($D).lhsNonContracting by decide)]
  rfl)

/-- For a dimension record `D` whose right operand's axis 1 is its one non-contracting axis: the right operand's
    index at `(i, q)` has second coordinate `i 1`.  Read off the record's lists. -/
macro "right_col_of% " D:term : term => `(fun i q => by
  unfold DotDims.rhsIdx
  rw [dif_neg (show ¬(1 : Fin _) ∈ ($D).rhsBatch by decide), dif_pos (show (1 : Fin _) ∈ ($D).rhsNonContracting by decide)]
  rfl)

variable {a k r b : ℕ}

/-- An `[a, b]` array as a function of its two coordinates. -/
abbrev mat (v : FVec Ideal ⟨2, ![a, b]⟩ .f32) : Fin a → Fin b → EReal := fun p c => v (ix2 p c)

/-- The matrix product of extended reals: entry `(p, c)` is `Σ j, l p j · w j c`. -/
def dot (l : Fin a → Fin k → EReal) (w : Fin k → Fin b → EReal) : Fin a → Fin b → EReal :=
  fun p c => ∑ j : Fin k, l p j * w j c

/-- Clamping below at `0`, entry by entry. -/
def relu (z : Fin a → Fin b → EReal) : Fin a → Fin b → EReal := fun p c => max (z p c) 0

/-- Every entry is a real number. -/
def AllReal (z : Fin a → Fin b → EReal) : Prop := ∀ p c, ∃ x : ℝ, z p c = (x : EReal)

/-- The inclusion of the reals commutes with finite sums. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A product of real matrices is real. -/
theorem allReal_dot {l : Fin a → Fin k → EReal} {w : Fin k → Fin b → EReal} (hl : AllReal l) (hw : AllReal w) :
    AllReal (dot l w) := by
  choose l' hl' using hl
  choose w' hw' using hw
  intro p c
  refine ⟨∑ j : Fin k, l' p j * w' j c, ?_⟩
  simp only [dot, hl', hw', ← EReal.coe_mul, ← coe_sum]

/-- A real matrix clamped at `0` is real. -/
theorem allReal_relu {z : Fin a → Fin b → EReal} (hz : AllReal z) : AllReal (relu z) := by
  intro p c
  obtain ⟨x, hx⟩ := hz p c
  refine ⟨max x 0, ?_⟩
  show max (z p c) 0 = _
  rw [hx, ← EReal.coe_zero]
  exact (EReal.coe_strictMono.monotone.map_max).symm

/-- Matrix multiplication of real matrices is associative: both sides are the double sum
    `Σ i, Σ j, z p i · K i j · V j c`. -/
theorem dot_assoc {z : Fin a → Fin k → EReal} {K : Fin k → Fin r → EReal} {V : Fin r → Fin b → EReal}
    (hz : AllReal z) (hK : AllReal K) (hV : AllReal V) : dot (dot z K) V = dot z (dot K V) := by
  choose z' hz' using hz
  choose K' hK' using hK
  choose V' hV' using hV
  funext p c
  simp only [dot, hz', hK', hV', ← EReal.coe_mul, ← coe_sum]
  refine congrArg Real.toEReal ?_
  simp only [Finset.sum_mul, Finset.mul_sum]
  rw [Finset.sum_comm]
  exact Finset.sum_congr rfl fun i _ => Finset.sum_congr rfl fun j _ => by ring

end Idealize.ShloMosaic.RealMatmul

end
-- ==== Proof.LowRankNet.lean ====
/-
  A four-layer network whose weights are rank-limited products, on the extended reals.

  Every layer multiplies the activations `z` by a weight `K · V` given through its two factors.  One arrangement
  forms `(z · K) · V`, the other `z · (K · V)`; the first three layers clamp the result below at `0`, and the
  last is followed by a row-wise log-softmax.  The two arrangements agree when every entry is a real number: a
  product of real matrices is associative, and clamping a real at `0` gives a real, so the activations stay real
  from layer to layer.  (With infinite entries distributivity fails, so the finiteness is needed.)

  All the operations act on each row of the activations independently of the other rows.
-/
import proofs.«131402_j83811991814293_2_alg».proof.Proof.LibRealMatmul

noncomputable section

namespace Cert.LowRankNet

open Idealize.ShloMosaic Idealize.ShloMosaic.ValueIdx Idealize.ShloMosaic.RealMatmul

variable {a b : ℕ}

/-- The largest entry of row `p`: the fold of `max` from `−∞`. -/
def rowTop (z : Fin a → Fin b → EReal) (p : Fin a) : EReal :=
  (Finset.univ : Finset (Fin b)).fold max ⊥ (fun j => z p j)

/-- The row-wise log-softmax: `(z p c − m) − log Σ j, exp (z p j − m)` with `m` the row's largest entry. -/
def logSoftmax (z : Fin a → Fin b → EReal) : Fin a → Fin b → EReal :=
  fun p c => (z p c - rowTop z p) - Ideal.log (∑ j : Fin b, Ideal.exp (z p j - rowTop z p))

/-- The network with every layer as `(z · K) · V`. -/
def factored (x : Fin a → Fin 1024 → EReal)
    (K0 : Fin 1024 → Fin 128 → EReal) (V0 : Fin 128 → Fin 4096 → EReal)
    (K1 : Fin 4096 → Fin 128 → EReal) (V1 : Fin 128 → Fin 4096 → EReal)
    (K2 : Fin 4096 → Fin 128 → EReal) (V2 : Fin 128 → Fin 4096 → EReal)
    (K3 : Fin 4096 → Fin 128 → EReal) (V3 : Fin 128 → Fin 1000 → EReal) : Fin a → Fin 1000 → EReal :=
  logSoftmax (dot (dot (relu (dot (dot (relu (dot (dot (relu (dot (dot x K0) V0)) K1) V1)) K2) V2)) K3) V3)

/-- The network with every layer as `z · (K · V)`. -/
def materialized (x : Fin a → Fin 1024 → EReal)
    (K0 : Fin 1024 → Fin 128 → EReal) (V0 : Fin 128 → Fin 4096 → EReal)
    (K1 : Fin 4096 → Fin 128 → EReal) (V1 : Fin 128 → Fin 4096 → EReal)
    (K2 : Fin 4096 → Fin 128 → EReal) (V2 : Fin 128 → Fin 4096 → EReal)
    (K3 : Fin 4096 → Fin 128 → EReal) (V3 : Fin 128 → Fin 1000 → EReal) : Fin a → Fin 1000 → EReal :=
  logSoftmax (dot (relu (dot (relu (dot (relu (dot x (dot K0 V0))) (dot K1 V1))) (dot K2 V2))) (dot K3 V3))

/-- On real inputs the two arrangements are one function. -/
theorem factored_eq_materialized {x : Fin a → Fin 1024 → EReal}
    {K0 : Fin 1024 → Fin 128 → EReal} {V0 : Fin 128 → Fin 4096 → EReal}
    {K1 : Fin 4096 → Fin 128 → EReal} {V1 : Fin 128 → Fin 4096 → EReal}
    {K2 : Fin 4096 → Fin 128 → EReal} {V2 : Fin 128 → Fin 4096 → EReal}
    {K3 : Fin 4096 → Fin 128 → EReal} {V3 : Fin 128 → Fin 1000 → EReal}
    (hx : AllReal x) (hK0 : AllReal K0) (hV0 : AllReal V0) (hK1 : AllReal K1) (hV1 : AllReal V1)
    (hK2 : AllReal K2) (hV2 : AllReal V2) (hK3 : AllReal K3) (hV3 : AllReal V3) :
    factored x K0 V0 K1 V1 K2 V2 K3 V3 = materialized x K0 V0 K1 V1 K2 V2 K3 V3 := by
  unfold factored materialized
  have r1 : AllReal (relu (dot x (dot K0 V0))) := allReal_relu (allReal_dot hx (allReal_dot hK0 hV0))
  have r2 : AllReal (relu (dot (relu (dot x (dot K0 V0))) (dot K1 V1))) :=
    allReal_relu (allReal_dot r1 (allReal_dot hK1 hV1))
  have r3 : AllReal (relu (dot (relu (dot (relu (dot x (dot K0 V0))) (dot K1 V1))) (dot K2 V2))) :=
    allReal_relu (allReal_dot r2 (allReal_dot hK2 hV2))
  rw [dot_assoc hx hK0 hV0, dot_assoc r1 hK1 hV1, dot_assoc r2 hK2 hV2, dot_assoc r3 hK3 hV3]

end Cert.LowRankNet

end
-- ==== Proof.KernelBlock.lean ====
/-
  What one grid point leaves in the output block, entry by entry.

  The body loads a `[512, 1024]` block of rows of `x` and the eight factor matrices whole, forms
  `(z · K) · V` four times on the matrix unit — the first three results clamped below at `0` — and finishes with a
  row-wise log-softmax of the `[512, 1000]` logits.  Read at entry `(q, c)` this is the factored network of the
  block's rows: each matrix product into the zero accumulator is the sum over the contracted coordinate, the
  clamp is `max · 0`, and the log-softmax is read by its row maximum and row sum.
-/
import proofs.«131402_j83811991814293_2_alg».proof.Proof.Gen.KernelIdeal.Value
import proofs.«131402_j83811991814293_2_alg».proof.Proof.LibPlainDot
import proofs.«131402_j83811991814293_2_alg».proof.Proof.LibLogSoftmaxRow
import proofs.«131402_j83811991814293_2_alg».proof.Proof.LowRankNet

noncomputable section

namespace Cert.KernelIdeal.Block

open Cert.KernelIdeal Cert.KernelIdeal.Gen Idealize.ShloMosaic Idealize.ShloMosaic.ValueIdx Cert.LowRankNet Idealize.ShloMosaic.RealMatmul

/-- The product `[512, 1024] × [1024, 128]` on the matrix unit, into zero. -/
theorem mm_in (l : FVec Ideal S512x1024 .f32) (w : FVec Ideal S1024x128 .f32) :
    mat (matmul dot_S512x1024_S1024x128_S512x128_1_0_0_1_n_n (some .fp32) l w (constant (F := Ideal) S512x128 .f32 0x00000000#32))
      = dot (mat l) (mat w) :=
  funext fun p => funext fun c => PlainDot.matmul_zero_apply dot_S512x1024_S1024x128_S512x128_1_0_0_1_n_n (some .fp32) rfl rfl
    (left_row_of% dot_S512x1024_S1024x128_S512x128_1_0_0_1_n_n)
    (fun i q => dot_S512x1024_S1024x128_S512x128_1_0_0_1_n_n.lhsIdx_val_of_single rfl i q)
    (fun i q => dot_S512x1024_S1024x128_S512x128_1_0_0_1_n_n.rhsIdx_val_of_single rfl i q)
    (right_col_of% dot_S512x1024_S1024x128_S512x128_1_0_0_1_n_n) l w p c

/-- The product `[512, 128] × [128, 4096]` on the matrix unit, into zero. -/
theorem mm_up (l : FVec Ideal S512x128 .f32) (w : FVec Ideal S128x4096 .f32) :
    mat (matmul dot_S512x128_S128x4096_S512x4096_1_0_0_1_n_n (some .fp32) l w (constant (F := Ideal) S512x4096 .f32 0x00000000#32))
      = dot (mat l) (mat w) :=
  funext fun p => funext fun c => PlainDot.matmul_zero_apply dot_S512x128_S128x4096_S512x4096_1_0_0_1_n_n (some .fp32) rfl rfl
    (left_row_of% dot_S512x128_S128x4096_S512x4096_1_0_0_1_n_n)
    (fun i q => dot_S512x128_S128x4096_S512x4096_1_0_0_1_n_n.lhsIdx_val_of_single rfl i q)
    (fun i q => dot_S512x128_S128x4096_S512x4096_1_0_0_1_n_n.rhsIdx_val_of_single rfl i q)
    (right_col_of% dot_S512x128_S128x4096_S512x4096_1_0_0_1_n_n) l w p c

/-- The product `[512, 4096] × [4096, 128]` on the matrix unit, into zero. -/
theorem mm_down (l : FVec Ideal S512x4096 .f32) (w : FVec Ideal S4096x128 .f32) :
    mat (matmul dot_S512x4096_S4096x128_S512x128_1_0_0_1_n_n (some .fp32) l w (constant (F := Ideal) S512x128 .f32 0x00000000#32))
      = dot (mat l) (mat w) :=
  funext fun p => funext fun c => PlainDot.matmul_zero_apply dot_S512x4096_S4096x128_S512x128_1_0_0_1_n_n (some .fp32) rfl rfl
    (left_row_of% dot_S512x4096_S4096x128_S512x128_1_0_0_1_n_n)
    (fun i q => dot_S512x4096_S4096x128_S512x128_1_0_0_1_n_n.lhsIdx_val_of_single rfl i q)
    (fun i q => dot_S512x4096_S4096x128_S512x128_1_0_0_1_n_n.rhsIdx_val_of_single rfl i q)
    (right_col_of% dot_S512x4096_S4096x128_S512x128_1_0_0_1_n_n) l w p c

/-- The product `[512, 128] × [128, 1000]` on the matrix unit, into zero. -/
theorem mm_out (l : FVec Ideal S512x128 .f32) (w : FVec Ideal S128x1000 .f32) :
    mat (matmul dot_S512x128_S128x1000_S512x1000_1_0_0_1_n_n (some .fp32) l w (constant (F := Ideal) S512x1000 .f32 0x00000000#32))
      = dot (mat l) (mat w) :=
  funext fun p => funext fun c => PlainDot.matmul_zero_apply dot_S512x128_S128x1000_S512x1000_1_0_0_1_n_n (some .fp32) rfl rfl
    (left_row_of% dot_S512x128_S128x1000_S512x1000_1_0_0_1_n_n)
    (fun i q => dot_S512x128_S128x1000_S512x1000_1_0_0_1_n_n.lhsIdx_val_of_single rfl i q)
    (fun i q => dot_S512x128_S128x1000_S512x1000_1_0_0_1_n_n.rhsIdx_val_of_single rfl i q)
    (right_col_of% dot_S512x128_S128x1000_S512x1000_1_0_0_1_n_n) l w p c

/-- The clamp of a `[512, 4096]` value against the splat of the zero word is `max · 0`. -/
theorem clamp_mat (v : FVec Ideal S512x4096 .f32) :
    mat (maximumf v (broadcast S512x4096 (Scalar.ofBits (F := Ideal) .f32 0x00000000#32))) = relu (mat v) := by
  funext p c
  show max (v (ix2 p c)) (Ideal.ofBits .f32 0x00000000#32) = max (v (ix2 p c)) 0
  rw [Ideal.ofBits_zero_f32]

/-- A hidden layer on the block: `(z · K) · V` clamped below at `0`. -/
def hidden (z : FVec Ideal S512x4096 .f32) (K : FVec Ideal S4096x128 .f32) (V : FVec Ideal S128x4096 .f32) :
    FVec Ideal S512x4096 .f32 :=
  maximumf (matmul dot_S512x128_S128x4096_S512x4096_1_0_0_1_n_n (some .fp32)
      (matmul dot_S512x4096_S4096x128_S512x128_1_0_0_1_n_n (some .fp32) z K (constant (F := Ideal) S512x128 .f32 0x00000000#32))
      V (constant (F := Ideal) S512x4096 .f32 0x00000000#32))
    (broadcast S512x4096 (Scalar.ofBits (F := Ideal) .f32 0x00000000#32))

theorem hidden_mat (z : FVec Ideal S512x4096 .f32) (K : FVec Ideal S4096x128 .f32) (V : FVec Ideal S128x4096 .f32) :
    mat (hidden z K V) = relu (dot (dot (mat z) (mat K)) (mat V)) := by
  unfold hidden
  rw [clamp_mat, mm_up, mm_down]

/-- The first layer on the block: `(x · K0) · V0` clamped below at `0`. -/
def first (x : FVec Ideal S512x1024 .f32) (K : FVec Ideal S1024x128 .f32) (V : FVec Ideal S128x4096 .f32) :
    FVec Ideal S512x4096 .f32 :=
  maximumf (matmul dot_S512x128_S128x4096_S512x4096_1_0_0_1_n_n (some .fp32)
      (matmul dot_S512x1024_S1024x128_S512x128_1_0_0_1_n_n (some .fp32) x K (constant (F := Ideal) S512x128 .f32 0x00000000#32))
      V (constant (F := Ideal) S512x4096 .f32 0x00000000#32))
    (broadcast S512x4096 (Scalar.ofBits (F := Ideal) .f32 0x00000000#32))

theorem first_mat (x : FVec Ideal S512x1024 .f32) (K : FVec Ideal S1024x128 .f32) (V : FVec Ideal S128x4096 .f32) :
    mat (first x K V) = relu (dot (dot (mat x) (mat K)) (mat V)) := by
  unfold first
  rw [clamp_mat, mm_up, mm_in]

/-- The body's logits are the four layers in turn. -/
theorem logits_layers (P0 : FVec Ideal S512x1024 .f32) (P1 : FVec Ideal S1024x128 .f32) (P2 : FVec Ideal S128x4096 .f32)
    (P3 : FVec Ideal S4096x128 .f32) (P4 : FVec Ideal S128x4096 .f32) (P5 : FVec Ideal S4096x128 .f32)
    (P6 : FVec Ideal S128x4096 .f32) (P7 : FVec Ideal S4096x128 .f32) (P8 : FVec Ideal S128x1000 .f32) :
    k0_pay2 (F := Ideal) P0 P1 P2 P3 P4 P5 P6 P7 P8
      = matmul dot_S512x128_S128x1000_S512x1000_1_0_0_1_n_n (some .fp32)
          (matmul dot_S512x4096_S4096x128_S512x128_1_0_0_1_n_n (some .fp32) (hidden (hidden (first P0 P1 P2) P3 P4) P5 P6) P7
            (constant (F := Ideal) S512x128 .f32 0x00000000#32))
          P8 (constant (F := Ideal) S512x1000 .f32 0x00000000#32) := rfl

/-- The logits of the block, as a function of the two coordinates. -/
theorem logits_mat (P0 : FVec Ideal S512x1024 .f32) (P1 : FVec Ideal S1024x128 .f32) (P2 : FVec Ideal S128x4096 .f32)
    (P3 : FVec Ideal S4096x128 .f32) (P4 : FVec Ideal S128x4096 .f32) (P5 : FVec Ideal S4096x128 .f32)
    (P6 : FVec Ideal S128x4096 .f32) (P7 : FVec Ideal S4096x128 .f32) (P8 : FVec Ideal S128x1000 .f32) :
    mat (k0_pay2 (F := Ideal) P0 P1 P2 P3 P4 P5 P6 P7 P8)
      = dot (dot (relu (dot (dot (relu (dot (dot (relu (dot (dot (mat P0) (mat P1)) (mat P2))) (mat P3)) (mat P4))) (mat P5)) (mat P6)))
          (mat P7)) (mat P8) := by
  rw [logits_layers, mm_out, mm_down, hidden_mat, hidden_mat, first_mat]

/-- THE STORED BLOCK at entry `(q, c)`: the factored network of the block's rows. -/
theorem stored_apply (P0 : FVec Ideal S512x1024 .f32) (P1 : FVec Ideal S1024x128 .f32) (P2 : FVec Ideal S128x4096 .f32)
    (P3 : FVec Ideal S4096x128 .f32) (P4 : FVec Ideal S128x4096 .f32) (P5 : FVec Ideal S4096x128 .f32)
    (P6 : FVec Ideal S128x4096 .f32) (P7 : FVec Ideal S4096x128 .f32) (P8 : FVec Ideal S128x1000 .f32) (q : Fin 512) (c : Fin 1000) :
    k0_pay1 (F := Ideal) (k0_pay2 (F := Ideal) P0 P1 P2 P3 P4 P5 P6 P7 P8) (k0_pay3 (F := Ideal) P0 P1 P2 P3 P4 P5 P6 P7 P8) (k0_pay4 (F := Ideal) P0 P1 P2 P3 P4 P5 P6 P7 P8) (ix2 q c)
      = factored (mat P0) (mat P1) (mat P2) (mat P3) (mat P4) (mat P5) (mat P6) (mat P7) (mat P8) q c := by
  rw [Value.lay9_0_eq]
  refine (LogSoftmaxRow.logSoftmax_apply (k0_pay2 (F := Ideal) P0 P1 P2 P3 P4 P5 P6 P7 P8) reduces_S512x1000_S512 shapeCasts_S512_S512x1
    broadcasts_S512x1_S512x1000 rfl rfl q c).trans ?_
  show logSoftmax (mat (k0_pay2 (F := Ideal) P0 P1 P2 P3 P4 P5 P6 P7 P8)) q c = _
  rw [logits_mat]
  rfl

end Cert.KernelIdeal.Block

end
-- ==== Proof.KernelArray.lean ====
/-
  From the blocks to the whole output array.

  Grid point `t` stages rows `512·t … 512·t + 511` of `x` and all of every factor matrix, and writes back rows
  `512·t … 512·t + 511` of the output.  The network acts on each row by itself, so what point `t` writes back is the
  block, over those rows, of ONE function of the argument arrays: the factored network of all `8192` rows.  The
  sixteen blocks tile the output (row `r` lies in the block of point `r / 512`), so after the run the output array is
  that function.
-/
import proofs.«131402_j83811991814293_2_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.ValueIdx Cert.LowRankNet Idealize.ShloMosaic.RealMatmul
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The output array as one function of the argument arrays: entry `(p, c)` of the factored network. -/
def net (A0 : FVec Ideal S8192x1024 .f32) (A1 : FVec Ideal S1024x128 .f32) (A2 : FVec Ideal S128x4096 .f32)
    (A3 : FVec Ideal S4096x128 .f32) (A4 : FVec Ideal S128x4096 .f32) (A5 : FVec Ideal S4096x128 .f32)
    (A6 : FVec Ideal S128x4096 .f32) (A7 : FVec Ideal S4096x128 .f32) (A8 : FVec Ideal S128x1000 .f32) : FVec Ideal S8192x1000 .f32 :=
  fun i => factored (mat A0) (mat A1) (mat A2) (mat A3) (mat A4) (mat A5) (mat A6) (mat A7) (mat A8) (i 0) (i 1)

/-- A block whose rows are rows `r q` of `A0`, with the factor matrices whole, stores the network's rows `r q`. -/
theorem point_apply (x0 : FVec Ideal S512x1024 .f32) (x1 : FVec Ideal S1024x128 .f32) (x2 : FVec Ideal S128x4096 .f32)
    (x3 : FVec Ideal S4096x128 .f32) (x4 : FVec Ideal S128x4096 .f32) (x5 : FVec Ideal S4096x128 .f32)
    (x6 : FVec Ideal S128x4096 .f32) (x7 : FVec Ideal S4096x128 .f32) (x8 : FVec Ideal S128x1000 .f32)
    (A0 : FVec Ideal S8192x1024 .f32) (A1 : FVec Ideal S1024x128 .f32) (A2 : FVec Ideal S128x4096 .f32)
    (A3 : FVec Ideal S4096x128 .f32) (A4 : FVec Ideal S128x4096 .f32) (A5 : FVec Ideal S4096x128 .f32)
    (A6 : FVec Ideal S128x4096 .f32) (A7 : FVec Ideal S4096x128 .f32) (A8 : FVec Ideal S128x1000 .f32)
    (r : Fin 512 → Fin 8192) (h0 : ∀ q i, x0 (ix2 q i) = A0 (ix2 (r q) i))
    (h1 : x1 = A1) (h2 : x2 = A2) (h3 : x3 = A3) (h4 : x4 = A4) (h5 : x5 = A5) (h6 : x6 = A6) (h7 : x7 = A7) (h8 : x8 = A8)
    (q : Fin 512) (c : Fin 1000) :
    k0_pay1 (F := Ideal) (k0_pay2 (F := Ideal) x0 x1 x2 x3 x4 x5 x6 x7 x8) (k0_pay3 (F := Ideal) x0 x1 x2 x3 x4 x5 x6 x7 x8)
        (k0_pay4 (F := Ideal) x0 x1 x2 x3 x4 x5 x6 x7 x8) (ix2 q c)
      = factored (mat A0) (mat A1) (mat A2) (mat A3) (mat A4) (mat A5) (mat A6) (mat A7) (mat A8) (r q) c := by
  subst h1 h2 h3 h4 h5 h6 h7 h8
  rw [Block.stored_apply]
  have e : mat x0 = fun q => mat A0 (r q) := funext fun q => funext fun i => h0 q i
  rw [e]
  rfl

/-- The printed index maps, decided over the sixteen grid points: the `x` window moves with the output window down
    the rows, every factor matrix's window stays at the origin, and the output's block row stays below sixteen. -/
theorem index_facts : ∀ t : Fin cfg0.N,
    win0_0.index t (0 : Fin 2) = win0_9.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) ≤ 15
    ∧ win0_9.index t (1 : Fin 2) = 0 :=
  (by decide +kernel : ∀ t : Fin grid0.N, _)

/-- Every block row of the output is some point's. -/
theorem index_onto : ∀ q0 : Fin 16, ∃ t : Fin cfg0.N, win0_9.index t = ![q0.val, 0] :=
  (by decide +kernel : ∀ q0 : Fin 16, ∃ t : Fin grid0.N, win0_9.index t = ![q0.val, 0])

/-- WHAT POINT `t` WRITES BACK is block `t` of the network of the argument arrays. -/
theorem flushed_eq (c : Dev nD) (t : Fin cfg0.N) :
    (dats m 0 c).flushed 9 t = ((cfg0.win 9).blk t).view.read (Elt Ideal)
      (net (V m c main_arg0) (V m c main_arg1) (V m c main_arg2) (V m c main_arg3) (V m c main_arg4) (V m c main_arg5)
        (V m c main_arg6) (V m c main_arg7) (V m c main_arg8)) := by
  show (cfg0.win 9).cut (grid0.coords t) ((dats m 0 c).after 9 t) = _
  rw [after0_9]
  unfold out0_9
  rw [View.canon_unit_zero origin]
  simp only [View.ld_unit_zero (S := S512x1024) origin, View.ld_unit_zero (S := S1024x128) origin,
    View.ld_unit_zero (S := S128x4096) origin, View.ld_unit_zero (S := S4096x128) origin,
    View.ld_unit_zero (S := S128x1000) origin]
  obtain ⟨e00, e01, e10, e11, e20, e21, e30, e31, e40, e41, e50, e51, e60, e61, e70, e71, e80, e81, e90, e91⟩ := index_facts t
  have w1 : iblk m c 1 t = V m c main_arg1 := by
    funext y
    show V m c main_arg1 (((cfg0.win 1).blk t).view.emb y) = V m c main_arg1 y
    refine congrArg (V m c main_arg1) (funext fun a => Fin.ext ?_)
    match a with
    | ⟨0, _⟩ => show win0_1.index t (0 : Fin 2) * 1024 + 1 * (y 0).val = (y 0).val; omega
    | ⟨1, _⟩ => show win0_1.index t (1 : Fin 2) * 128 + 1 * (y 1).val = (y 1).val; omega
  have w2 : iblk m c 2 t = V m c main_arg2 := by
    funext y
    show V m c main_arg2 (((cfg0.win 2).blk t).view.emb y) = V m c main_arg2 y
    refine congrArg (V m c main_arg2) (funext fun a => Fin.ext ?_)
    match a with
    | ⟨0, _⟩ => show win0_2.index t (0 : Fin 2) * 128 + 1 * (y 0).val = (y 0).val; omega
    | ⟨1, _⟩ => show win0_2.index t (1 : Fin 2) * 4096 + 1 * (y 1).val = (y 1).val; omega
  have w3 : iblk m c 3 t = V m c main_arg3 := by
    funext y
    show V m c main_arg3 (((cfg0.win 3).blk t).view.emb y) = V m c main_arg3 y
    refine congrArg (V m c main_arg3) (funext fun a => Fin.ext ?_)
    match a with
    | ⟨0, _⟩ => show win0_3.index t (0 : Fin 2) * 4096 + 1 * (y 0).val = (y 0).val; omega
    | ⟨1, _⟩ => show win0_3.index t (1 : Fin 2) * 128 + 1 * (y 1).val = (y 1).val; omega
  have w4 : iblk m c 4 t = V m c main_arg4 := by
    funext y
    show V m c main_arg4 (((cfg0.win 4).blk t).view.emb y) = V m c main_arg4 y
    refine congrArg (V m c main_arg4) (funext fun a => Fin.ext ?_)
    match a with
    | ⟨0, _⟩ => show win0_4.index t (0 : Fin 2) * 128 + 1 * (y 0).val = (y 0).val; omega
    | ⟨1, _⟩ => show win0_4.index t (1 : Fin 2) * 4096 + 1 * (y 1).val = (y 1).val; omega
  have w5 : iblk m c 5 t = V m c main_arg5 := by
    funext y
    show V m c main_arg5 (((cfg0.win 5).blk t).view.emb y) = V m c main_arg5 y
    refine congrArg (V m c main_arg5) (funext fun a => Fin.ext ?_)
    match a with
    | ⟨0, _⟩ => show win0_5.index t (0 : Fin 2) * 4096 + 1 * (y 0).val = (y 0).val; omega
    | ⟨1, _⟩ => show win0_5.index t (1 : Fin 2) * 128 + 1 * (y 1).val = (y 1).val; omega
  have w6 : iblk m c 6 t = V m c main_arg6 := by
    funext y
    show V m c main_arg6 (((cfg0.win 6).blk t).view.emb y) = V m c main_arg6 y
    refine congrArg (V m c main_arg6) (funext fun a => Fin.ext ?_)
    match a with
    | ⟨0, _⟩ => show win0_6.index t (0 : Fin 2) * 128 + 1 * (y 0).val = (y 0).val; omega
    | ⟨1, _⟩ => show win0_6.index t (1 : Fin 2) * 4096 + 1 * (y 1).val = (y 1).val; omega
  have w7 : iblk m c 7 t = V m c main_arg7 := by
    funext y
    show V m c main_arg7 (((cfg0.win 7).blk t).view.emb y) = V m c main_arg7 y
    refine congrArg (V m c main_arg7) (funext fun a => Fin.ext ?_)
    match a with
    | ⟨0, _⟩ => show win0_7.index t (0 : Fin 2) * 4096 + 1 * (y 0).val = (y 0).val; omega
    | ⟨1, _⟩ => show win0_7.index t (1 : Fin 2) * 128 + 1 * (y 1).val = (y 1).val; omega
  have w8 : iblk m c 8 t = V m c main_arg8 := by
    funext y
    show V m c main_arg8 (((cfg0.win 8).blk t).view.emb y) = V m c main_arg8 y
    refine congrArg (V m c main_arg8) (funext fun a => Fin.ext ?_)
    match a with
    | ⟨0, _⟩ => show win0_8.index t (0 : Fin 2) * 128 + 1 * (y 0).val = (y 0).val; omega
    | ⟨1, _⟩ => show win0_8.index t (1 : Fin 2) * 1000 + 1 * (y 1).val = (y 1).val; omega
  have w0 : ∀ (q : Fin 512) (i : Fin 1024), iblk m c 0 t (ix2 q i)
      = V m c main_arg0 (ix2 (⟨win0_9.index t (0 : Fin 2) * 512 + q.val, by have := q.isLt; omega⟩ : Fin 8192) i) := by
    intro q i
    show V m c main_arg0 (((cfg0.win 0).blk t).view.emb (ix2 q i)) = _
    refine congrArg (V m c main_arg0) (funext fun a => Fin.ext ?_)
    match a with
    | ⟨0, _⟩ => show win0_0.index t (0 : Fin 2) * 512 + 1 * q.val = win0_9.index t (0 : Fin 2) * 512 + q.val; omega
    | ⟨1, _⟩ => show win0_0.index t (1 : Fin 2) * 1024 + 1 * i.val = i.val; omega
  funext j
  obtain ⟨q, c', rfl⟩ : ∃ (q : Fin 512) (c' : Fin 1000), j = ix2 q c' := ⟨j 0, j 1, eq_ix2 j⟩
  refine (point_apply (iblk m c 0 t) (iblk m c 1 t) (iblk m c 2 t) (iblk m c 3 t) (iblk m c 4 t) (iblk m c 5 t)
    (iblk m c 6 t) (iblk m c 7 t) (iblk m c 8 t)
    (V m c main_arg0) (V m c main_arg1) (V m c main_arg2) (V m c main_arg3) (V m c main_arg4) (V m c main_arg5)
    (V m c main_arg6) (V m c main_arg7) (V m c main_arg8)
    (fun q => ⟨win0_9.index t (0 : Fin 2) * 512 + q.val, by have := q.isLt; omega⟩) w0 w1 w2 w3 w4 w5 w6 w7 w8 q c').trans ?_
  have r0 : @Eq (Fin 8192) ((((cfg0.win 9).blk t).view.emb (ix2 q c')) 0)
      ⟨win0_9.index t (0 : Fin 2) * 512 + q.val, by have := q.isLt; omega⟩ :=
    Fin.ext (by show win0_9.index t (0 : Fin 2) * 512 + 1 * q.val = win0_9.index t (0 : Fin 2) * 512 + q.val; omega)
  have r1 : @Eq (Fin 1000) ((((cfg0.win 9).blk t).view.emb (ix2 q c')) 1) c' :=
    Fin.ext (by show win0_9.index t (1 : Fin 2) * 1000 + 1 * c'.val = c'.val; omega)
  exact (congrArg₂ (factored (mat (V m c main_arg0)) (mat (V m c main_arg1)) (mat (V m c main_arg2)) (mat (V m c main_arg3))
    (mat (V m c main_arg4)) (mat (V m c main_arg5)) (mat (V m c main_arg6)) (mat (V m c main_arg7)) (mat (V m c main_arg8))) r0 r1).symm

/-- An index of the array is in point `t`'s block iff each coordinate is in the block's range on its axis. -/
theorem mem_blk (t : Fin cfg0.N) (i : S8192x1000.Idx) :
    i ∈ ((cfg0.win 9).blk t).view.set ↔ ∀ a : Fin 2, win0_9.index t a * S512x1000.size a ≤ (i a).val
      ∧ (i a).val < win0_9.index t a * S512x1000.size a + S512x1000.size a := by
  show i ∈ ((View.whole main_v0).slice (win0_9.rect t)).set ↔ _
  rw [View.set_slice_whole, Rect.mem_set_unit]
  exact Iff.rfl

/-- The blocks tile the output: row `r` is in the block of the point whose block row is `r / 512`. -/
theorem covered (i : S8192x1000.Idx) :
    ∃ t : Fin cfg0.N, (cfg0.win 9).flush t = true ∧ i ∈ ((cfg0.win 9).blk t).view.set := by
  have hi0 : (i 0).val < 8192 := (i 0).isLt
  have hi1 : (i 1).val < 1000 := (i 1).isLt
  obtain ⟨t, ht⟩ := index_onto ⟨(i 0).val / 512, by omega⟩
  have q0 : win0_9.index t (0 : Fin 2) = (i 0).val / 512 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1000 ≤ (i 1).val ∧ (i 1).val < win0_9.index t (1 : Fin 2) * 1000 + 1000; omega

/-- THE OUTPUT ARRAY after the run is the network of the argument arrays. -/
theorem final (c : Dev nD) : (dats m 0 c).arrAt 9 cfg0.N
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9
    (net (V m c main_arg0) (V m c main_arg1) (V m c main_arg2) (V m c main_arg3) (V m c main_arg4) (V m c main_arg5)
      (V m c main_arg6) (V m c main_arg7) (V m c main_arg8))
    (fun t _ => flushed_eq m c t) covered

/-- The run, read: the output at the network of the arguments, the arguments unchanged. -/
theorem run : θ_run defs (onTc (τ := τ) (main (F := Ideal))) ⟨m, fun _ => 0, ρ⟩ fun r => ∀ c : Dev nD,
      r.2.mem ((c : Thread nD τ).loc main_v0)
        = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.LibHostLogSoftmaxRow.lean ====
/-
  The host's row-wise log-softmax read at an entry, on the extended reals.

  The host spells it, for an `[a, b]` array `x`: the row maximum by a reduce with a maximum body from `−∞`, joined once
  more with `−∞`; kept as an `[a, 1]` column and broadcast back over the lanes; subtracted; exponentiated; summed over
  each row from `0`; kept as a column; its logarithm broadcast back and subtracted. At entry `(p, c)` that is
  `(x (p, c) − m) − log (Σ_k exp (x (p, k) − m))` with `m` the fold of `max` from `−∞` over row `p`.
-/
import proofs.«131402_j83811991814293_2_alg».proof.Proof.LibLogSoftmaxRow
import Idealize.ShloMosaic.PureOps.Reduce

noncomputable section

namespace Idealize.ShloMosaic.HostLogSoftmaxRow

open Idealize.ShloMosaic Idealize.ShloMosaic.ValueIdx Idealize.ShloMosaic.LogSoftmaxRow

variable {a b : ℕ}

/-- The reduced index `p` with lane `k` put back is `(p, k)`. -/
theorem lift_ix1 (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- Joining with `−∞` changes nothing. -/
theorem max_neg_inf (y : EReal) : max (Ideal.ofBits .f32 0xFF800000#32) y = y := by
  rw [ofBits_neg_inf]; exact max_eq_right bot_le

/-- The host's row maximum from `−∞`, joined with `−∞`, kept as a column and broadcast back, reads at `(p, c)` the
    row's largest entry. -/
theorem hostTop_apply (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (c : Fin b) :
    broadcastInDim ⟨2, ![a, b]⟩ ![0, 1] hb2 (broadcastInDim ⟨2, ![a, 1]⟩ ![0] hb1
      (maximumf (broadcastInDim ⟨1, ![a]⟩ ![] hb0 (constant (F := Ideal) ⟨0, ![]⟩ .f32 0xFF800000#32))
        (Host.reduce FloatOps.maximumf x (constant (F := Ideal) ⟨0, ![]⟩ .f32 0xFF800000#32) h' hu))) (ix2 p c)
      = rowTop x p := by
  rw [broadcastInDim_apply ![0, 1] hb2 _ (ix2 p c) (ix2 p (0 : Fin 1)) (fun ax => by
    match ax with
    | ⟨0, _⟩ =>
      show p.val = if a = 1 then 0 else p.val
      split
      · have := p.isLt; omega
      · rfl
    | ⟨1, _⟩ => rfl)]
  rw [broadcastInDim_apply ![0] hb1 _ (ix2 p (0 : Fin 1)) (ix1 p) (fun ax => by
    match ax with
    | ⟨0, _⟩ =>
      show p.val = if a = 1 then 0 else p.val
      split
      · have := p.isLt; omega
      · rfl)]
  rw [maximumf_apply, broadcastInDim_apply ![] hb0 _ (ix1 p) ix0 (fun ax => ax.elim0)]
  rw [Host.reduce_eq_fold_single FloatOps.maximumf x _ h' h hu]
  show max (Ideal.ofBits .f32 0xFF800000#32) ((Finset.univ : Finset (Fin b)).fold max (Ideal.ofBits .f32 0xFF800000#32) (x ∘ h.lift (ix1 p))) = _
  rw [max_neg_inf, ofBits_neg_inf]
  unfold rowTop
  refine congrArg (fun f => (Finset.univ : Finset (Fin b)).fold max ⊥ f) (funext fun k => ?_)
  exact congrArg x (lift_ix1 h p k)

/-- The host's row sum from `0` of an array `w`, kept as a column, its logarithm broadcast back, reads at `(p, c)` the
    logarithm of row `p`'s sum. -/
theorem hostLogSum_apply (w : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (c : Fin b) :
    broadcastInDim ⟨2, ![a, b]⟩ ![0, 1] hb2 (Host.log (broadcastInDim ⟨2, ![a, 1]⟩ ![0] hb1
      (Host.reduceAdd w (constant (F := Ideal) ⟨0, ![]⟩ .f32 0x00000000#32) h' hu))) (ix2 p c)
      = Ideal.log (∑ k : Fin b, w (ix2 p k)) := by
  rw [broadcastInDim_apply ![0, 1] hb2 _ (ix2 p c) (ix2 p (0 : Fin 1)) (fun ax => by
    match ax with
    | ⟨0, _⟩ =>
      show p.val = if a = 1 then 0 else p.val
      split
      · have := p.isLt; omega
      · rfl
    | ⟨1, _⟩ => rfl)]
  show Ideal.log (broadcastInDim ⟨2, ![a, 1]⟩ ![0] hb1 (Host.reduceAdd w (constant (F := Ideal) ⟨0, ![]⟩ .f32 0x00000000#32) h' hu) (ix2 p (0 : Fin 1))) = _
  rw [broadcastInDim_apply ![0] hb1 _ (ix2 p (0 : Fin 1)) (ix1 p) (fun ax => by
    match ax with
    | ⟨0, _⟩ =>
      show p.val = if a = 1 then 0 else p.val
      split
      · have := p.isLt; omega
      · rfl)]
  refine congrArg Ideal.log ?_
  show Ideal.hostReduceAdd h' w (Ideal.ofBits .f32 0x00000000#32) (ix1 p) = _
  rw [Ideal.hostReduceAdd_single h' h, Ideal.ofBits_zero_f32, zero_add]
  exact Finset.sum_congr rfl fun k _ => congrArg w (lift_ix1 h p k)

/-- The host's whole row-wise log-softmax at entry `(p, c)`. -/
theorem hostLogSoftmax_apply (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (c : Fin b) :
    subf (subf x (broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 0xFF800000#32))
          (Host.reduce FloatOps.maximumf x (constant (F := Ideal) ⟨0, ![]⟩ .f32 0xFF800000#32) h' hu)))))
      (broadcastInDim ⟨2, ![a, b]⟩ ![0, 1] hb2 (Host.log (broadcastInDim ⟨2, ![a, 1]⟩ ![0] hb1
        (Host.reduceAdd (Host.exp (subf x (broadcastInDim ⟨2, ![a, b]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf x (constant (F := Ideal) ⟨0, ![]⟩ .f32 0xFF800000#32) h' hu))))))
          (constant (F := Ideal) ⟨0, ![]⟩ .f32 0x00000000#32) h' hu)))) (ix2 p c)
      = (x (ix2 p c) - rowTop x p) - Ideal.log (∑ k : Fin b, Ideal.exp (x (ix2 p k) - rowTop x p)) := by
  rw [subf_apply, subf_apply, hostTop_apply x h' h hu hb0 hb1 hb2 p c, hostLogSum_apply _ h' h hu hb1 hb2 p c]
  refine congrArg (fun s => (x (ix2 p c) - rowTop x p) - Ideal.log s) (Finset.sum_congr rfl fun k _ => ?_)
  show Ideal.exp (subf x _ (ix2 p k)) = _
  rw [subf_apply, hostTop_apply x h' h hu hb0 hb1 hb2 p k]

end Idealize.ShloMosaic.HostLogSoftmaxRow

end
-- ==== Proof.HostNet.lean ====
/-
  The reference's result, entry by entry.

  The host forms each weight `K · V` first and multiplies the activations by it, clamps the first three layers
  below at `0` (a maximum with the zero scalar broadcast to the layer's shape), and ends with its row-wise
  log-softmax.  Read at entry `(p, c)` this is the network with materialized weights: each `dot_general` is the sum
  over the contracted coordinate, the clamp is `max · 0`, and the log-softmax is read by its row maximum and row sum.
-/
import proofs.«131402_j83811991814293_2_alg».proof.Proof.Gen.ReferenceIdeal
import proofs.«131402_j83811991814293_2_alg».proof.Proof.LibPlainDot
import proofs.«131402_j83811991814293_2_alg».proof.Proof.LibHostLogSoftmaxRow
import proofs.«131402_j83811991814293_2_alg».proof.Proof.LowRankNet

noncomputable section

namespace Cert.ReferenceIdeal.HostNet

open Cert.ReferenceIdeal Cert.ReferenceIdeal.Gen Idealize.ShloMosaic Idealize.ShloMosaic.ValueIdx Cert.LowRankNet Idealize.ShloMosaic.RealMatmul

/-- The weight product `[1024, 128] × [128, 4096]`. -/
theorem dg_w0 (l : FVec Ideal S1024x128 .f32) (w : FVec Ideal S128x4096 .f32) :
    mat (Host.dotGeneral dot_S1024x128_S128x4096_S1024x4096_1_0_0_1_n_n none l w) = dot (mat l) (mat w) :=
  funext fun p => funext fun c => PlainDot.dotGeneral_apply dot_S1024x128_S128x4096_S1024x4096_1_0_0_1_n_n none rfl rfl
    (left_row_of% dot_S1024x128_S128x4096_S1024x4096_1_0_0_1_n_n)
    (fun i q => dot_S1024x128_S128x4096_S1024x4096_1_0_0_1_n_n.lhsIdx_val_of_single rfl i q)
    (fun i q => dot_S1024x128_S128x4096_S1024x4096_1_0_0_1_n_n.rhsIdx_val_of_single rfl i q)
    (right_col_of% dot_S1024x128_S128x4096_S1024x4096_1_0_0_1_n_n) l w p c

/-- The weight product `[4096, 128] × [128, 4096]`. -/
theorem dg_w (l : FVec Ideal S4096x128 .f32) (w : FVec Ideal S128x4096 .f32) :
    mat (Host.dotGeneral dot_S4096x128_S128x4096_S4096x4096_1_0_0_1_n_n none l w) = dot (mat l) (mat w) :=
  funext fun p => funext fun c => PlainDot.dotGeneral_apply dot_S4096x128_S128x4096_S4096x4096_1_0_0_1_n_n none rfl rfl
    (left_row_of% dot_S4096x128_S128x4096_S4096x4096_1_0_0_1_n_n)
    (fun i q => dot_S4096x128_S128x4096_S4096x4096_1_0_0_1_n_n.lhsIdx_val_of_single rfl i q)
    (fun i q => dot_S4096x128_S128x4096_S4096x4096_1_0_0_1_n_n.rhsIdx_val_of_single rfl i q)
    (right_col_of% dot_S4096x128_S128x4096_S4096x4096_1_0_0_1_n_n) l w p c

/-- The weight product `[4096, 128] × [128, 1000]`. -/
theorem dg_w3 (l : FVec Ideal S4096x128 .f32) (w : FVec Ideal S128x1000 .f32) :
    mat (Host.dotGeneral dot_S4096x128_S128x1000_S4096x1000_1_0_0_1_n_n none l w) = dot (mat l) (mat w) :=
  funext fun p => funext fun c => PlainDot.dotGeneral_apply dot_S4096x128_S128x1000_S4096x1000_1_0_0_1_n_n none rfl rfl
    (left_row_of% dot_S4096x128_S128x1000_S4096x1000_1_0_0_1_n_n)
    (fun i q => dot_S4096x128_S128x1000_S4096x1000_1_0_0_1_n_n.lhsIdx_val_of_single rfl i q)
    (fun i q => dot_S4096x128_S128x1000_S4096x1000_1_0_0_1_n_n.rhsIdx_val_of_single rfl i q)
    (right_col_of% dot_S4096x128_S128x1000_S4096x1000_1_0_0_1_n_n) l w p c

/-- The first layer's product `[8192, 1024] × [1024, 4096]`. -/
theorem dg_l0 (l : FVec Ideal S8192x1024 .f32) (w : FVec Ideal S1024x4096 .f32) :
    mat (Host.dotGeneral dot_S8192x1024_S1024x4096_S8192x4096_1_0_0_1_n_n none l w) = dot (mat l) (mat w) :=
  funext fun p => funext fun c => PlainDot.dotGeneral_apply dot_S8192x1024_S1024x4096_S8192x4096_1_0_0_1_n_n none rfl rfl
    (left_row_of% dot_S8192x1024_S1024x4096_S8192x4096_1_0_0_1_n_n)
    (fun i q => dot_S8192x1024_S1024x4096_S8192x4096_1_0_0_1_n_n.lhsIdx_val_of_single rfl i q)
    (fun i q => dot_S8192x1024_S1024x4096_S8192x4096_1_0_0_1_n_n.rhsIdx_val_of_single rfl i q)
    (right_col_of% dot_S8192x1024_S1024x4096_S8192x4096_1_0_0_1_n_n) l w p c

/-- A hidden layer's product `[8192, 4096] × [4096, 4096]`. -/
theorem dg_l (l : FVec Ideal S8192x4096 .f32) (w : FVec Ideal S4096x4096 .f32) :
    mat (Host.dotGeneral dot_S8192x4096_S4096x4096_S8192x4096_1_0_0_1_n_n none l w) = dot (mat l) (mat w) :=
  funext fun p => funext fun c => PlainDot.dotGeneral_apply dot_S8192x4096_S4096x4096_S8192x4096_1_0_0_1_n_n none rfl rfl
    (left_row_of% dot_S8192x4096_S4096x4096_S8192x4096_1_0_0_1_n_n)
    (fun i q => dot_S8192x4096_S4096x4096_S8192x4096_1_0_0_1_n_n.lhsIdx_val_of_single rfl i q)
    (fun i q => dot_S8192x4096_S4096x4096_S8192x4096_1_0_0_1_n_n.rhsIdx_val_of_single rfl i q)
    (right_col_of% dot_S8192x4096_S4096x4096_S8192x4096_1_0_0_1_n_n) l w p c

/-- The last layer's product `[8192, 4096] × [4096, 1000]`. -/
theorem dg_l3 (l : FVec Ideal S8192x4096 .f32) (w : FVec Ideal S4096x1000 .f32) :
    mat (Host.dotGeneral dot_S8192x4096_S4096x1000_S8192x1000_1_0_0_1_n_n none l w) = dot (mat l) (mat w) :=
  funext fun p => funext fun c => PlainDot.dotGeneral_apply dot_S8192x4096_S4096x1000_S8192x1000_1_0_0_1_n_n none rfl rfl
    (left_row_of% dot_S8192x4096_S4096x1000_S8192x1000_1_0_0_1_n_n)
    (fun i q => dot_S8192x4096_S4096x1000_S8192x1000_1_0_0_1_n_n.lhsIdx_val_of_single rfl i q)
    (fun i q => dot_S8192x4096_S4096x1000_S8192x1000_1_0_0_1_n_n.rhsIdx_val_of_single rfl i q)
    (right_col_of% dot_S8192x4096_S4096x1000_S8192x1000_1_0_0_1_n_n) l w p c

/-- The host's clamp of an `[8192, 4096]` value: the maximum with the zero scalar broadcast to the shape. -/
theorem clamp_mat (v : FVec Ideal S8192x4096 .f32) :
    mat (maximumf v (broadcastInDim S8192x4096 ![] bcast_S_S8192x4096 (constant (F := Ideal) S_ .f32 0x00000000#32))) = relu (mat v) := by
  funext p c
  show max (v (ix2 p c)) (broadcastInDim S8192x4096 ![] bcast_S_S8192x4096 (constant (F := Ideal) S_ .f32 0x00000000#32) (ix2 p c))
    = max (v (ix2 p c)) 0
  rw [broadcastInDim_apply ![] bcast_S_S8192x4096 _ (ix2 p c) ix0 (fun ax => ax.elim0)]
  show max (v (ix2 p c)) (Ideal.ofBits .f32 0x00000000#32) = _
  rw [Ideal.ofBits_zero_f32]

/-- The reference's logits as the host composes them. -/
def logits (a0 : FVec Ideal S8192x1024 .f32) (a1 : FVec Ideal S1024x128 .f32) (a2 : FVec Ideal S128x4096 .f32)
    (a3 : FVec Ideal S4096x128 .f32) (a4 : FVec Ideal S128x4096 .f32) (a5 : FVec Ideal S4096x128 .f32)
    (a6 : FVec Ideal S128x4096 .f32) (a7 : FVec Ideal S4096x128 .f32) (a8 : FVec Ideal S128x1000 .f32) : FVec Ideal S8192x1000 .f32 :=
  (Host.dotGeneral dot_S8192x4096_S4096x1000_S8192x1000_1_0_0_1_n_n none (maximumf (Host.dotGeneral dot_S8192x4096_S4096x4096_S8192x4096_1_0_0_1_n_n none (maximumf (Host.dotGeneral dot_S8192x4096_S4096x4096_S8192x4096_1_0_0_1_n_n none (maximumf (Host.dotGeneral dot_S8192x1024_S1024x4096_S8192x4096_1_0_0_1_n_n none a0 (Host.dotGeneral dot_S1024x128_S128x4096_S1024x4096_1_0_0_1_n_n none a1 a2)) (broadcastInDim S8192x4096 ![] bcast_S_S8192x4096 (constant (F := Ideal) S_ .f32 0x00000000#32))) (Host.dotGeneral dot_S4096x128_S128x4096_S4096x4096_1_0_0_1_n_n none a3 a4)) (broadcastInDim S8192x4096 ![] bcast_S_S8192x4096 (constant (F := Ideal) S_ .f32 0x00000000#32))) (Host.dotGeneral dot_S4096x128_S128x4096_S4096x4096_1_0_0_1_n_n none a5 a6)) (broadcastInDim S8192x4096 ![] bcast_S_S8192x4096 (constant (F := Ideal) S_ .f32 0x00000000#32))) (Host.dotGeneral dot_S4096x128_S128x1000_S4096x1000_1_0_0_1_n_n none a7 a8))

/-- The logits as a function of the two coordinates: the four layers with materialized weights. -/
theorem logits_mat (a0 : FVec Ideal S8192x1024 .f32) (a1 : FVec Ideal S1024x128 .f32) (a2 : FVec Ideal S128x4096 .f32)
    (a3 : FVec Ideal S4096x128 .f32) (a4 : FVec Ideal S128x4096 .f32) (a5 : FVec Ideal S4096x128 .f32)
    (a6 : FVec Ideal S128x4096 .f32) (a7 : FVec Ideal S4096x128 .f32) (a8 : FVec Ideal S128x1000 .f32) :
    mat (logits a0 a1 a2 a3 a4 a5 a6 a7 a8)
      = dot (relu (dot (relu (dot (relu (dot (mat a0) (dot (mat a1) (mat a2)))) (dot (mat a3) (mat a4)))) (dot (mat a5) (mat a6))))
          (dot (mat a7) (mat a8)) := by
  unfold logits
  rw [dg_l3, clamp_mat, dg_l, clamp_mat, dg_l, clamp_mat, dg_l0, dg_w0, dg_w, dg_w, dg_w3]

/-- The host's row-wise log-softmax chain applied to an `[8192, 1000]` value. -/
def lsm (X : FVec Ideal S8192x1000 .f32) : FVec Ideal S8192x1000 .f32 :=
  subf (subf X (broadcastInDim S8192x1000 ![0, 1] bcast_S8192x1_S8192x1000_0_1 (broadcastInDim S8192x1 ![0] bcast_S8192_S8192x1_0 (maximumf (broadcastInDim S8192 ![] bcast_S_S8192 (constant (F := Ideal) S_ .f32 0xFF800000#32)) (Host.reduce FloatOps.maximumf X (constant (F := Ideal) S_ .f32 0xFF800000#32) reducesTo_S8192x1000_S8192_d1 h_S_))))) (broadcastInDim S8192x1000 ![0, 1] bcast_S8192x1_S8192x1000_0_1 (Host.log (broadcastInDim S8192x1 ![0] bcast_S8192_S8192x1_0 (Host.reduceAdd (Host.exp (subf X (broadcastInDim S8192x1000 ![0, 1] bcast_S8192x1_S8192x1000_0_1 (broadcastInDim S8192x1 ![0] bcast_S8192_S8192x1_0 (maximumf (broadcastInDim S8192 ![] bcast_S_S8192 (constant (F := Ideal) S_ .f32 0xFF800000#32)) (Host.reduce FloatOps.maximumf X (constant (F := Ideal) S_ .f32 0xFF800000#32) reducesTo_S8192x1000_S8192_d1 h_S_)))))) (constant (F := Ideal) S_ .f32 0x00000000#32) reducesTo_S8192x1000_S8192_d1 h_S_))))

/-- THE REFERENCE'S RESULT at entry `(p, c)`: the network with materialized weights. -/
theorem result_apply (a0 : FVec Ideal S8192x1024 .f32) (a1 : FVec Ideal S1024x128 .f32) (a2 : FVec Ideal S128x4096 .f32)
    (a3 : FVec Ideal S4096x128 .f32) (a4 : FVec Ideal S128x4096 .f32) (a5 : FVec Ideal S4096x128 .f32)
    (a6 : FVec Ideal S128x4096 .f32) (a7 : FVec Ideal S4096x128 .f32) (a8 : FVec Ideal S128x1000 .f32) (p : Fin 8192) (c : Fin 1000) :
    lsm (logits a0 a1 a2 a3 a4 a5 a6 a7 a8) (ix2 p c)
      = materialized (mat a0) (mat a1) (mat a2) (mat a3) (mat a4) (mat a5) (mat a6) (mat a7) (mat a8) p c := by
  unfold lsm
  refine (HostLogSoftmaxRow.hostLogSoftmax_apply (logits a0 a1 a2 a3 a4 a5 a6 a7 a8) reducesTo_S8192x1000_S8192_d1 (by decide) h_S_
    bcast_S_S8192 bcast_S8192_S8192x1_0 bcast_S8192x1_S8192x1000_0_1 p c).trans ?_
  show logSoftmax (mat (logits a0 a1 a2 a3 a4 a5 a6 a7 a8)) p c = _
  rw [logits_mat]
  rfl

end Cert.ReferenceIdeal.HostNet

end
-- ==== Proof.LibFiniteEntries.lean ====
/-
  "Every entry is finite", read back from its printed test.

  A precondition `jnp.all(|a| < +∞)` prints, for an argument `a` of any shape, as the comparison of `|a|` with the
  word of `+∞` broadcast from a scalar to the argument's shape, reduced by `and` over all axes from `1`; several such
  tests are joined by `and` on one-bit scalars.  On the extended reals `|x|` is `max x (−x)`, the word `0x7F800000` is
  `⊤`, and an extended real whose absolute value is below `⊤` is a real number.  So: a conjunction that is `1` has both
  conjuncts `1`, and a test that is `1` gives a real number at every entry of its argument.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.FiniteEntries

open Idealize.ShloMosaic Idealize.ShloMosaic.ValueIdx

/-- The rank-0 shape has one index. -/
instance : Subsingleton (⟨0, ![]⟩ : Shape).Idx := ⟨fun a b => funext fun d => d.elim0⟩

/-- The binary32 word of `+∞` denotes `⊤`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit scalars that is `1` has both conjuncts `1`. -/
theorem and_split {x y : IVec ⟨0, ![]⟩ 1} (h : andi x y ix0 = 1#1) : x ix0 = 1#1 ∧ y ix0 = 1#1 :=
  IntOp.andi_eq_one.1 h

/-- One argument's test: if "all `|a| < +∞`" came out `1`, every entry of `a` is real. -/
theorem entries_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) hr hu ix0 = 1#1)
    (i : s.Idx) : ∃ r : ℝ, a i = (r : EReal) := by
  have h := Host.reduce_andi_all _ _ hr hu ix0 e i
  have h' : Ideal.cmp .olt (max (a i) (-(a i)))
      (broadcastInDim s ![] hb (constant (F := Ideal) ⟨0, ![]⟩ .f32 0x7F800000#32) i) = 1#1 := h
  rw [broadcastInDim_apply ![] hb _ i ix0 (fun ax => ax.elim0)] at h'
  have h'' : Ideal.cmp .olt (max (a i) (-(a i))) (Ideal.ofBits .f32 0x7F800000#32) = 1#1 := h'
  rw [ofBits_inf] at h''
  refine real_of_abs_lt_top (a i) ?_
  by_contra hn
  have : Ideal.cmp .olt (max (a i) (-(a i))) ⊤ = 0#1 := by
    unfold Ideal.cmp
    simp [hn]
  rw [this] at h''
  exact absurd h'' (by decide)

end Idealize.ShloMosaic.FiniteEntries

end
-- ==== Proof.FiniteInputs.lean ====
/-
  The precondition, read back: every entry of every argument is a real number.

  The predicate is the conjunction, over the nine arguments, of "all entries have absolute value below `+∞`", the
  nine one-bit results joined by `and`.  The conjunction is `1` only if each test is, and a test that is `1` gives a
  real number at every entry of its argument.
-/
import proofs.«131402_j83811991814293_2_alg».proof.Pre_finite_inputs
import proofs.«131402_j83811991814293_2_alg».proof.Proof.Gen.Pre_finite_inputs
import proofs.«131402_j83811991814293_2_alg».proof.Proof.LibRealMatmul
import proofs.«131402_j83811991814293_2_alg».proof.Proof.LibFiniteEntries

noncomputable section

namespace Cert.Pre_finite_inputs.Finite

open Cert.Pre_finite_inputs Cert.Pre_finite_inputs.Gen Idealize.ShloMosaic Idealize.ShloMosaic.ValueIdx
open Idealize.ShloMosaic.RealMatmul Idealize.ShloMosaic.FiniteEntries

/-- THE PRECONDITION gives: every entry of every argument is real. -/
theorem all_real (a0 : FVec Ideal S8192x1024 .f32) (a1 : FVec Ideal S1024x128 .f32) (a2 : FVec Ideal S128x4096 .f32)
    (a3 : FVec Ideal S4096x128 .f32) (a4 : FVec Ideal S128x4096 .f32) (a5 : FVec Ideal S4096x128 .f32)
    (a6 : FVec Ideal S128x4096 .f32) (a7 : FVec Ideal S4096x128 .f32) (a8 : FVec Ideal S128x1000 .f32)
    (hpre : fn (F := Ideal) a0 a1 a2 a3 a4 a5 a6 a7 a8 = fun _ => 1#1) :
    AllReal (mat a0) ∧ AllReal (mat a1) ∧ AllReal (mat a2) ∧ AllReal (mat a3) ∧ AllReal (mat a4) ∧ AllReal (mat a5)
      ∧ AllReal (mat a6) ∧ AllReal (mat a7) ∧ AllReal (mat a8) := by
  have h := congrFun hpre ix0
  dsimp only [fn, fn_part1, fn_part2] at h
  obtain ⟨h, t8⟩ := and_split h
  obtain ⟨h, t7⟩ := and_split h
  obtain ⟨h, t6⟩ := and_split h
  obtain ⟨h, t5⟩ := and_split h
  obtain ⟨h, t4⟩ := and_split h
  obtain ⟨h, t3⟩ := and_split h
  obtain ⟨h, t2⟩ := and_split h
  obtain ⟨t0, t1⟩ := and_split h
  exact ⟨fun p c => entries_real a0 _ _ _ t0 (ix2 p c), fun p c => entries_real a1 _ _ _ t1 (ix2 p c),
    fun p c => entries_real a2 _ _ _ t2 (ix2 p c), fun p c => entries_real a3 _ _ _ t3 (ix2 p c),
    fun p c => entries_real a4 _ _ _ t4 (ix2 p c), fun p c => entries_real a5 _ _ _ t5 (ix2 p c),
    fun p c => entries_real a6 _ _ _ t6 (ix2 p c), fun p c => entries_real a7 _ _ _ t7 (ix2 p c),
    fun p c => entries_real a8 _ _ _ t8 (ix2 p c)⟩

end Cert.Pre_finite_inputs.Finite

end
-- ==== Proof.lean ====
/-
  The proof of `Cert.Claim`: a four-layer network whose weights are given as rank-128 factors `K · V`, ending in a
  row-wise log-softmax, computed by one kernel over sixteen blocks of 512 rows as `(z · K) · V` per layer, against
  the host program that first forms each weight `K · V` and then multiplies, `z · (K · V)`.

  On the extended reals the two agree because every input is finite: then every entry met along the way is a real
  number (a finite sum of products of reals, or such a sum clamped below at `0`), and on real matrices the product is
  associative — both arrangements are the double sum `Σ i, Σ j, z p i · K i j · V j c` (Proof/LibRealMatmul.lean,
  Proof/LowRankNet.lean).  With an
  infinite entry distributivity fails, so the precondition is used, read back entry by entry in
  Proof/FiniteInputs.lean.

  The kernel side: each grid point stores the factored network of its 512 rows (Proof/KernelBlock.lean: the matrix
  unit into a zero accumulator is the sum over the contracted coordinate, the clamp is `max · 0`, the log-softmax is
  read by its row maximum and row sum), and since the network acts on each row by itself the sixteen blocks are
  the blocks of one function of the argument arrays, which tile the output (Proof/KernelArray.lean).  The host side:
  the reference's run gives its result as the composed term of its operations (Proof/RunPatched.lean), read at an
  entry as the network with materialized weights (Proof/HostNet.lean).  The three frames are the generated runs; the
  idealization rewrote nothing, so `preserves` is trivial.
-/
import proofs.«131402_j83811991814293_2_alg».proof.Defs
import proofs.«131402_j83811991814293_2_alg».proof.Proof.Gen.Kernel
import proofs.«131402_j83811991814293_2_alg».proof.Proof.Gen.Kernel.Skeleton
import proofs.«131402_j83811991814293_2_alg».proof.Proof.Gen.Kernel.Launch
import proofs.«131402_j83811991814293_2_alg».proof.Proof.Gen.Kernel.Points
import proofs.«131402_j83811991814293_2_alg».proof.Proof.Gen.Kernel.Frame
import proofs.«131402_j83811991814293_2_alg».proof.Proof.Gen.KernelIdeal
import proofs.«131402_j83811991814293_2_alg».proof.Proof.Gen.KernelIdeal.Skeleton
import proofs.«131402_j83811991814293_2_alg».proof.Proof.Gen.KernelIdeal.Launch
import proofs.«131402_j83811991814293_2_alg».proof.Proof.Gen.KernelIdeal.Points
import proofs.«131402_j83811991814293_2_alg».proof.Proof.Gen.KernelIdeal.Frame
import proofs.«131402_j83811991814293_2_alg».proof.Proof.Gen.KernelIdeal.Value
import proofs.«131402_j83811991814293_2_alg».proof.Proof.Gen.ReferenceIdeal
import proofs.«131402_j83811991814293_2_alg».proof.Proof.Gen.Pre_finite_inputs
import proofs.«131402_j83811991814293_2_alg».proof.Proof.RunPatched
import proofs.«131402_j83811991814293_2_alg».proof.Proof.KernelArray
import proofs.«131402_j83811991814293_2_alg».proof.Proof.HostNet
import proofs.«131402_j83811991814293_2_alg».proof.Proof.FiniteInputs
import Idealize.ShloMosaic.Adequacy
import Idealize.ShloMosaic.Init

noncomputable section

namespace Cert.Proof

open Idealize.ShloMosaic Idealize.ShloMosaic.ValueIdx Idealize.SL.Sem Cert.LowRankNet Idealize.ShloMosaic.RealMatmul

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- The reference run's result term is the host's log-softmax chain of the host's logits. -/
theorem reference_term (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v11 (F := Ideal) m' c
      = Cert.ReferenceIdeal.HostNet.lsm (Cert.ReferenceIdeal.HostNet.logits
          (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) := rfl

/-- At `Ideal`, from memories agreeing on the arguments, the kernel's output array ends at the factored network of
    the arguments and the host's result at the network with materialized weights: one function, since every
    argument entry is real. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨g0, g1, g2, g3, g4, g5, g6, g7, g8⟩ := hagree c
  obtain ⟨r0, r1, r2, r3, r4, r5, r6, r7, r8⟩ := Cert.Pre_finite_inputs.Finite.all_real _ _ _ _ _ _ _ _ _ (hpre c)
  rw [reference_term, g0, g1, g2, g3, g4, g5, g6, g7, g8]
  funext i
  obtain ⟨p, j, rfl⟩ : ∃ (p : Fin 8192) (j : Fin 1000), i = ix2 p j := ⟨i 0, i 1, eq_ix2 i⟩
  rw [Cert.ReferenceIdeal.HostNet.result_apply]
  exact (congrFun (congrFun (factored_eq_materialized r0 r1 r2 r3 r4 r5 r6 r7 r8) p) j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
